-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn_part1 {F : FTy → Type} [FloatOps F] (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  main_v18

def fn {F : FTy → Type} [FloatOps F] (main_arg0 : FVec F S2x2048x1024 .f32) (main_arg1 : FVec F S2x2048x1024 .f32) (main_arg2 : FVec F S2x2048x1024 .f32) (main_arg3 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S2x2048x1024 .f32 := Host.absf main_arg3
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_v13 main_v16
-- ==== Kernel.lean ====
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512x1 : Shape := ⟨2, ![512, 1]⟩
abbrev S1x2048 : Shape := ⟨2, ![1, 2048]⟩
abbrev S512 : Shape := ⟨1, ![512]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x16x64, .f32⟩
  | .hbm, ⟨5, _⟩ => ⟨S2x16x2048x64, .f32⟩
  | .hbm, ⟨6, _⟩ => ⟨S2x2048x16x64, .f32⟩
  | .hbm, ⟨7, _⟩ => ⟨S2x16x2048x64, .f32⟩
  | .hbm, ⟨8, _⟩ => ⟨S2x2048x16x64, .f32⟩
  | .hbm, ⟨9, _⟩ => ⟨S2x16x2048x64, .f32⟩
  | .hbm, ⟨10, _⟩ => ⟨S2x2048x16x64, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S2x2048x16x64, .f32⟩
  | .hbm, ⟨16, _⟩ => ⟨S2x2048x1024, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  iota_S512x1_d0_w32 : S512x1.Iotas .tc 32 [0]
  iota_S1x2048_d1_w32 : S1x2048.Iotas .tc 32 [1]
  broadcasts_S1x2048_S512x2048 : S1x2048.Broadcasts S512x2048
  broadcasts_S512x1_S512x2048 : S512x1.Broadcasts S512x2048
  reduces_S512x2048_S512 : S512x2048.Reduces [1] S512
  shapeCasts_S512_S512x1 : S512.ShapeCasts S512x1
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x16x2048x64.size a
  hwx0_3 : ∀ i : grid0.Coords, EltTy.bits .f32 = 32 ∨ (Rect.block (s := S2x16x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x16x64, .f32⟩
  | .hbm, ⟨5, _⟩ => ⟨S2x16x2048x64, .f32⟩
  | .hbm, ⟨6, _⟩ => ⟨S2x2048x16x64, .f32⟩
  | .hbm, ⟨7, _⟩ => ⟨S2x16x2048x64, .f32⟩
  | .hbm, ⟨8, _⟩ => ⟨S2x2048x16x64, .f32⟩
  | .hbm, ⟨9, _⟩ => ⟨S2x16x2048x64, .f32⟩
  | .hbm, ⟨10, _⟩ => ⟨S2x2048x16x64, .f32⟩
  | .hbm, ⟨11, _⟩ => ⟨S2x16x2048x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2048x2048, .f32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S1x1x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S1x1x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S_, .f32⟩
  | .hbm, ⟨44, _⟩ => ⟨S2x16x2048, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S_, .f32⟩
  | .hbm, ⟨51, _⟩ => ⟨S2x16x2048, .f32⟩
  | .hbm, ⟨52, _⟩ => ⟨S2x16x2048x1, .f32⟩
  | .hbm, ⟨53, _⟩ => ⟨S2x16x2048x2048, .f32⟩
  | .hbm, ⟨54, _⟩ => ⟨S2x16x2048x2048, .f32⟩
  | .hbm, ⟨55, _⟩ => ⟨S2x16x2048x64, .f32⟩
  | .hbm, ⟨56, _⟩ => ⟨S2x2048x16x64, .f32⟩
  | .hbm, ⟨57, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_cst : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Causal softmax attention of one head on the extended reals, stated once and row by row.

  A query row `q : Fin 64 → EReal` at sequence position `r` meets every key row `k c`: the score at column `c` is the
  inner product `∑ d, q d * k c d` times the scale where `c ≤ r`, and the fill value where `c > r` (`logitRow`).
  The row's weights are its softmax with the maximum subtracted (`softmaxRow`): with `M` the maximum of the row,
  taken as the fold of `max` from the floor value, the weight at `c` is `exp (w c - M) / ∑ c', exp (w c' - M)`. The
  context row is the weights' combination of the value rows, `∑ c, weight c * v c d` (`ctxRow`).

  The three float patterns stay patterns (`scale` is 1/8, `fill` is -10¹⁰, `floor` is -∞): both programs spell the
  same words, so nothing here depends on their values.

  Over the head-split arrays `Q K V : [2, 16, 2048, 64]` the attention weights are the array `att Q K : [2, 16, 2048, 2048]`
  and the context the array `ctx Q K V : [2, 16, 2048, 64]`; batch `b` and head `h` only select the rows.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The scale of the scores (the pattern of 1/8). -/
abbrev scale : EReal := Ideal.ofBits .f32 0x3E000000#32
/-- What a masked score is replaced by (the pattern of -10¹⁰). -/
abbrev fill : EReal := Ideal.ofBits .f32 0xD01502F9#32
/-- What a row's maximum is folded from (the pattern of -∞). -/
abbrev floor : EReal := Ideal.ofBits .f32 0xFF800000#32

/-- The masked, scaled scores of the query row `q` at position `r` against the key rows `k`. -/
def logitRow (q : Fin 64 → EReal) (k : Fin 2048 → Fin 64 → EReal) (r : ℕ) (c : Fin 2048) : EReal :=
  if c.val ≤ r then (∑ d : Fin 64, q d * k c d) * scale else fill

/-- A row's maximum, folded from the floor value. -/
def rowMax (w : Fin 2048 → EReal) : EReal := (Finset.univ : Finset (Fin 2048)).fold max floor w

/-- The softmax of a row with its maximum subtracted. -/
def softmaxRow (w : Fin 2048 → EReal) (c : Fin 2048) : EReal :=
  Ideal.div (Ideal.exp (w c - rowMax w)) (∑ c' : Fin 2048, Ideal.exp (w c' - rowMax w))

/-- The attention weights of one query row. -/
def attRow (q : Fin 64 → EReal) (k : Fin 2048 → Fin 64 → EReal) (r : ℕ) : Fin 2048 → EReal :=
  softmaxRow (logitRow q k r)

/-- The context of one query row: its weights' combination of the value rows. -/
def ctxRow (q : Fin 64 → EReal) (k v : Fin 2048 → Fin 64 → EReal) (r : ℕ) (d : Fin 64) : EReal :=
  ∑ c : Fin 2048, attRow q k r c * v c d

/-- A head-split array: batch, head, position, feature. -/
abbrev Heads := (⟨4, ![2, 16, 2048, 64]⟩ : Shape).Idx → EReal

/-- The weight of key position `c` for query position `r` in batch `b`, head `h`. -/
def attAt (Q K : Heads) (b : Fin 2) (h : Fin 16) (r c : Fin 2048) : EReal :=
  attRow (fun d => Q (ix4 b h r d)) (fun c' d => K (ix4 b h c' d)) r.val c

/-- Feature `d` of the context of query position `r` in batch `b`, head `h`. -/
def ctxAt (Q K V : Heads) (b : Fin 2) (h : Fin 16) (r : Fin 2048) (d : Fin 64) : EReal :=
  ctxRow (fun d => Q (ix4 b h r d)) (fun c' d => K (ix4 b h c' d)) (fun c' d => V (ix4 b h c' d)) r.val d

/-- The attention weights as one array. -/
def att (Q K : Heads) : (⟨4, ![2, 16, 2048, 2048]⟩ : Shape).Idx → EReal :=
  fun i => attAt Q K (i 0) (i 1) (i 2) (i 3)

/-- The context as one array. -/
def ctx (Q K V : Heads) : (⟨4, ![2, 16, 2048, 64]⟩ : Shape).Idx → EReal :=
  fun i => ctxAt Q K V (i 0) (i 1) (i 2) (i 3)

theorem att_ix4 (Q K : Heads) (b : Fin 2) (h : Fin 16) (r c : Fin 2048) :
    att Q K (ix4 b h r c) = attAt Q K b h r c := rfl

theorem ctx_ix4 (Q K V : Heads) (b : Fin 2) (h : Fin 16) (r : Fin 2048) (d : Fin 64) :
    ctx Q K V (ix4 b h r d) = ctxAt Q K V b h r d := rfl

/-- The context is the weights' combination of the value rows, array against array. -/
theorem ctxAt_eq (Q K V : Heads) (b : Fin 2) (h : Fin 16) (r : Fin 2048) (d : Fin 64) :
    ctxAt Q K V b h r d = ∑ c : Fin 2048, att Q K (ix4 b h r c) * V (ix4 b h c d) := rfl

end Cert.Attn

end
-- ==== Proof.KernelRows.lean ====
/-
  The kernel's payloads read at an index, at the ideal values (a float an extended real, a change of format the
  identity, a matrix product the plain sum over the contracted axis).

  The body's score block is the product of the query block with the key block transposed, scaled, and masked below
  the diagonal of the whole sequence: at row `r` of query block `t` and column `c` the mask keeps the score where
  `c ≤ t * 512 + r`. The weights are the row's softmax with the row maximum subtracted; the context block is the
  weights' product with the value block. Each payload is read here at one index as the specification's row functions.
-/
import proofs.«147215_j20624432955701_2_alg».proof.Proof.Gen.KernelIdeal.Skeleton
import proofs.«147215_j20624432955701_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Attn.Ker

open Cert.KernelIdeal Cert.KernelIdeal.Gen Idealize.ShloMosaic Idealize.ShloMosaic.ValueIdx

/-! ## Layout operations at literal-rank shapes, read at an index -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-! ## The two products' operand indices -/

theorem qk_lhs_non (j : S512x2048.Idx) (q : dot_S512x64_S2048x64_S512x2048_1_1_0_0_n_n.contr.Idx) :
    (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs_con (j : S512x2048.Idx) (q : dot_S512x64_S2048x64_S512x2048_1_1_0_0_n_n.contr.Idx) :
    (dot_S512x64_S2048x64_S512x2048_1_1_0_0_n_n.lhsIdx j q 1).val = (q ⟨0, by decide⟩).val :=
  dot_S512x64_S2048x64_S512x2048_1_1_0_0_n_n.lhsIdx_val_of_single rfl j q
theorem qk_rhs_non (j : S512x2048.Idx) (q : dot_S512x64_S2048x64_S512x2048_1_1_0_0_n_n.contr.Idx) :
    (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs_con (j : S512x2048.Idx) (q : dot_S512x64_S2048x64_S512x2048_1_1_0_0_n_n.contr.Idx) :
    (dot_S512x64_S2048x64_S512x2048_1_1_0_0_n_n.rhsIdx j q 1).val = (q ⟨0, by decide⟩).val :=
  dot_S512x64_S2048x64_S512x2048_1_1_0_0_n_n.rhsIdx_val_of_single rfl j q

theorem av_lhs_non (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem av_lhs_con (j : S512x64.Idx) (q : dot_S512x2048_S2048x64_S512x64_1_0_0_1_n_n.contr.Idx) :
    (dot_S512x2048_S2048x64_S512x64_1_0_0_1_n_n.lhsIdx j q 1).val = (q ⟨0, by decide⟩).val :=
  dot_S512x2048_S2048x64_S512x64_1_0_0_1_n_n.lhsIdx_val_of_single rfl j q
theorem av_rhs_non (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl
theorem av_rhs_con (j : S512x64.Idx) (q : dot_S512x2048_S2048x64_S512x64_1_0_0_1_n_n.contr.Idx) :
    (dot_S512x2048_S2048x64_S512x64_1_0_0_1_n_n.rhsIdx j q 0).val = (q ⟨0, by decide⟩).val :=
  dot_S512x2048_S2048x64_S512x64_1_0_0_1_n_n.rhsIdx_val_of_single rfl j q

/-- The scores' product contracts the feature axis of both operands: at result `(r, c)` and feature `k` it reads the
    query block at `(r, k)` … -/
theorem qk_lhsIdx (r : Fin 512) (c : Fin 2048) (k : Fin 64) :
    dot_S512x64_S2048x64_S512x2048_1_1_0_0_n_n.lhsIdx (ix2 r c) ((contrEquiv1 dot_S512x64_S2048x64_S512x2048_1_1_0_0_n_n 64 rfl rfl).symm k) = ix2 r k := by
  have hk := contrEquiv1_symm_val dot_S512x64_S2048x64_S512x2048_1_1_0_0_n_n 64 rfl rfl k
  funext a
  refine Fin.ext ?_
  match a with
  | ⟨0, _⟩ => exact qk_lhs_non _ _
  | ⟨1, _⟩ => exact (qk_lhs_con _ _).trans hk

/-- … and the key block at `(c, k)`. -/
theorem qk_rhsIdx (r : Fin 512) (c : Fin 2048) (k : Fin 64) :
    dot_S512x64_S2048x64_S512x2048_1_1_0_0_n_n.rhsIdx (ix2 r c) ((contrEquiv1 dot_S512x64_S2048x64_S512x2048_1_1_0_0_n_n 64 rfl rfl).symm k) = ix2 c k := by
  have hk := contrEquiv1_symm_val dot_S512x64_S2048x64_S512x2048_1_1_0_0_n_n 64 rfl rfl k
  funext a
  refine Fin.ext ?_
  match a with
  | ⟨0, _⟩ => exact qk_rhs_non _ _
  | ⟨1, _⟩ => exact (qk_rhs_con _ _).trans hk

/-- The context's product contracts the weights' column axis with the value block's row axis: at result `(r, d)` and
    key position `k` it reads the weights at `(r, k)` … -/
theorem av_lhsIdx (r : Fin 512) (d : Fin 64) (k : Fin 2048) :
    dot_S512x2048_S2048x64_S512x64_1_0_0_1_n_n.lhsIdx (ix2 r d) ((contrEquiv1 dot_S512x2048_S2048x64_S512x64_1_0_0_1_n_n 2048 rfl rfl).symm k) = ix2 r k := by
  have hk := contrEquiv1_symm_val dot_S512x2048_S2048x64_S512x64_1_0_0_1_n_n 2048 rfl rfl k
  funext a
  refine Fin.ext ?_
  match a with
  | ⟨0, _⟩ => exact av_lhs_non _ _
  | ⟨1, _⟩ => exact (av_lhs_con _ _).trans hk

/-- … and the value block at `(k, d)`. -/
theorem av_rhsIdx (r : Fin 512) (d : Fin 64) (k : Fin 2048) :
    dot_S512x2048_S2048x64_S512x64_1_0_0_1_n_n.rhsIdx (ix2 r d) ((contrEquiv1 dot_S512x2048_S2048x64_S512x64_1_0_0_1_n_n 2048 rfl rfl).symm k) = ix2 k d := by
  have hk := contrEquiv1_symm_val dot_S512x2048_S2048x64_S512x64_1_0_0_1_n_n 2048 rfl rfl k
  funext a
  refine Fin.ext ?_
  match a with
  | ⟨0, _⟩ => exact (av_rhs_con _ _).trans hk
  | ⟨1, _⟩ => exact av_rhs_non _ _

/-- The scores' product into the zero block, read at `(r, c)`: the inner product of query row `r` and key row `c`. -/
theorem qk_apply (a : FVec Ideal S512x64 .bf16) (b : FVec Ideal S2048x64 .bf16) (r : Fin 512) (c : Fin 2048) :
    matmul dot_S512x64_S2048x64_S512x2048_1_1_0_0_n_n none a b (constant S512x2048 .f32 0x00000000#32) (ix2 r c)
      = ∑ k : Fin 64, a (ix2 r k) * b (ix2 c k) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  rw [qk_lhsIdx, qk_rhsIdx]

/-- The context's product into the zero block, read at `(r, d)`: the weights' row `r` against the value block's column `d`. -/
theorem av_apply (a : FVec Ideal S512x2048 .bf16) (b : FVec Ideal S2048x64 .bf16) (r : Fin 512) (d : Fin 64) :
    matmul dot_S512x2048_S2048x64_S512x64_1_0_0_1_n_n none a b (constant S512x64 .f32 0x00000000#32) (ix2 r d)
      = ∑ k : Fin 2048, a (ix2 r k) * b (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  rw [av_lhsIdx, av_rhsIdx]

/-! ## The row reductions with the reduced axis kept -/

/-- The source index over row `r` with column `k` inserted is `(r, k)`. -/
theorem lift_row (r : Fin 512) (k : Fin 2048) : reduces_S512x2048_S512.lift (ix1 r) k = ix2 r k :=
  funext fun a => Fin.ext (by
    match a with
    | ⟨0, _⟩ => rfl
    | ⟨1, _⟩ => rfl)

/-- The maximum over the columns, from the floor pattern, read at row `r`: the row's maximum. -/
theorem reduceMax_apply (w : FVec Ideal S512x2048 .f32) (hφ : FKind.Formats .f32)
    (hacc : (0xFF800000#32 : BitVec 32) = FKind.maximumf.neutral .f32 hφ) (r : Fin 512) :
    multiReduction .maximumf [1] S512 w 0xFF800000#32 reduces_S512x2048_S512 hφ hacc (ix1 r)
      = Cert.Attn.rowMax fun c => w (ix2 r c) := by
  refine (Ideal.multiReduction_maximumf_single w _ reduces_S512x2048_S512 hφ hacc (ix1 r)).trans ?_
  unfold Cert.Attn.rowMax
  exact congrArg (Finset.fold max (Ideal.ofBits .f32 0xFF800000#32) · (Finset.univ : Finset (Fin 2048)))
    (funext fun k => congrArg w (lift_row r k))

/-- The sum over the columns read at row `r`: the row's sum. -/
theorem reduceAdd_apply (w : FVec Ideal S512x2048 .f32) (hφ : FKind.Formats .f32)
    (hacc : (0x00000000#32 : BitVec 32) = FKind.add.neutral .f32 hφ) (r : Fin 512) :
    multiReduction .add [1] S512 w 0x00000000#32 reduces_S512x2048_S512 hφ hacc (ix1 r) = ∑ c : Fin 2048, w (ix2 r c) := by
  refine (Ideal.multiReduction_add_single w _ reduces_S512x2048_S512 hφ hacc (ix1 r)).trans ?_
  exact Finset.sum_congr rfl fun k _ => congrArg w (lift_row r k)

/-- A per-row value with the reduced axis put back as a unit axis and broadcast over the columns reads, at `(r, c)`,
    the row's value. -/
theorem keepdims_apply {α : Type} (v : S512.Idx → α) (r : Fin 512) (c : Fin 2048) :
    broadcastTo S512x2048 (shapeCast S512x1 v shapeCasts_S512_S512x1) broadcasts_S512x1_S512x2048 (ix2 r c) = v (ix1 r) :=
  (broadcastTo_a1_ab_apply _ broadcasts_S512x1_S512x2048 r c).trans (shapeCast_a_a1_apply v shapeCasts_S512_S512x1 r 0)

/-! ## The weights from the scores -/

/-- The body's softmax of a score block: the row maximum subtracted, the exponential, the row sum, the quotient. -/
def soft (v21 : FVec Ideal S512x2048 .f32) : FVec Ideal S512x2048 .f32 :=
  have v22 : FVec Ideal S512 .f32 := multiReduction .maximumf [1] S512 v21 0xFF800000#32 reduces_S512x2048_S512 (.inl rfl) rfl
  have v23 : FVec Ideal S512x1 .f32 := shapeCast S512x1 v22 shapeCasts_S512_S512x1
  have v24 : FVec Ideal S512x2048 .f32 := broadcastTo S512x2048 v23 broadcasts_S512x1_S512x2048
  have v25 : FVec Ideal S512x2048 .f32 := subf v21 v24
  have v26 : FVec Ideal S512x2048 .f32 := exp v25
  have v27 : FVec Ideal S512 .f32 := multiReduction .add [1] S512 v26 0x00000000#32 reduces_S512x2048_S512 (.inl rfl) rfl
  have v28 : FVec Ideal S512x1 .f32 := shapeCast S512x1 v27 shapeCasts_S512_S512x1
  have v29 : FVec Ideal S512x2048 .f32 := broadcastTo S512x2048 v28 broadcasts_S512x1_S512x2048
  have v30 : FVec Ideal S512x2048 .f32 := divf v26 v29
  v30

/-- Read at `(r, c)`, it is the softmax of row `r` at column `c`. -/
theorem soft_apply (w : FVec Ideal S512x2048 .f32) (r : Fin 512) (c : Fin 2048) :
    soft w (ix2 r c) = Cert.Attn.softmaxRow (fun c' => w (ix2 r c')) c := by
  have hmax : ∀ c' : Fin 2048,
      broadcastTo S512x2048 (shapeCast S512x1 (multiReduction .maximumf [1] S512 w 0xFF800000#32 reduces_S512x2048_S512 (.inl rfl) rfl)
        shapeCasts_S512_S512x1) broadcasts_S512x1_S512x2048 (ix2 r c') = Cert.Attn.rowMax fun c'' => w (ix2 r c'') :=
    fun c' => (keepdims_apply _ r c').trans (reduceMax_apply w _ _ r)
  have hexp : ∀ c' : Fin 2048,
      exp (subf w (broadcastTo S512x2048 (shapeCast S512x1 (multiReduction .maximumf [1] S512 w 0xFF800000#32 reduces_S512x2048_S512 (.inl rfl) rfl)
        shapeCasts_S512_S512x1) broadcasts_S512x1_S512x2048)) (ix2 r c')
        = Ideal.exp (w (ix2 r c') - Cert.Attn.rowMax fun c'' => w (ix2 r c'')) :=
    fun c' => congrArg (fun m => Ideal.exp (w (ix2 r c') - m)) (hmax c')
  unfold soft Cert.Attn.softmaxRow
  refine (divf_apply _ _ _).trans ?_
  refine congrArg₂ Ideal.div (hexp c) ?_
  refine (keepdims_apply _ r c).trans ?_
  refine (reduceAdd_apply _ _ _ r).trans ?_
  exact Finset.sum_congr rfl fun c' _ => hexp c'

/-! ## The causal mask's bit -/

/-- A natural below 2³¹ read back from its 32-bit word as a signed integer is itself. -/
theorem toInt_ofNat_small (n : ℕ) (h : n < 2147483648) : (BitVec.ofNat 32 n).toInt = (n : Int) := by
  rw [BitVec.toInt_eq_toNat_of_lt]
  · simp only [BitVec.toNat_ofNat]; omega
  · simp only [BitVec.toNat_ofNat]; omega

/-- On 32-bit words, for a column `c` below 2048, a query block `t` below 4 and a row `r` below 512, the signed
    comparison of `c` against `t * 512 + r` is the comparison of the naturals: nothing wraps. -/
theorem mask_bit (c t r : ℕ) (hc : c < 2048) (ht : t < 4) (hr : r < 512) :
    IntOp.cmpi .sle (BitVec.ofNat 32 c) (IntOp.addi (Scalar.muli (BitVec.ofNat 32 t) 512#32) (BitVec.ofNat 32 r))
      = if c ≤ t * 512 + r then 1#1 else 0#1 := by
  have e : IntOp.addi (Scalar.muli (BitVec.ofNat 32 t) 512#32) (BitVec.ofNat 32 r) = BitVec.ofNat 32 (t * 512 + r) := by
    unfold IntOp.addi Scalar.muli IntOp.muli
    apply BitVec.eq_of_toNat_eq
    simp only [BitVec.toNat_add, BitVec.toNat_mul, BitVec.toNat_ofNat]
    omega
  rw [e]
  unfold IntOp.cmpi
  simp only [BitVec.sle, toInt_ofNat_small c (by omega), toInt_ofNat_small (t * 512 + r) (by omega)]
  by_cases h : c ≤ t * 512 + r
  · rw [if_pos h, decide_eq_true (by omega)]; rfl
  · rw [if_neg h, decide_eq_false (by omega)]; rfl

/-! ## The scores -/

/-- The body's masked, scaled score block of query block `i 2`. -/
def scores (i : grid0.Coords) (v0 : Vec Ideal S1x1x512x64 .f32) (v3 : Vec Ideal S1x1x2048x64 .f32) : FVec Ideal S512x2048 .f32 :=
  let arg2 : BitVec 32 := BitVec.ofNat 32 (i 2).val
  have v1 : FVec Ideal S512x64 .f32 := shapeCast S512x64 v0 shapeCasts_S1x1x512x64_S512x64
  have v2 : FVec Ideal S512x64 .bf16 := truncf .bf16 v1 bitsLt_bf16_f32
  have v4 : FVec Ideal S2048x64 .f32 := shapeCast S2048x64 v3 shapeCasts_S1x1x2048x64_S2048x64
  have v5 : FVec Ideal S2048x64 .bf16 := truncf .bf16 v4 bitsLt_bf16_f32
  have cst : FVec Ideal S512x2048 .f32 := constant S512x2048 .f32 0x00000000#32
  have v9 : FVec Ideal S512x2048 .f32 := matmul dot_S512x64_S2048x64_S512x2048_1_1_0_0_n_n none v2 v5 cst
  have cst_11 : Ideal .f32 := Scalar.ofBits .f32 0x3E000000#32
  have v10 : FVec Ideal S512x2048 .f32 := broadcast S512x2048 cst_11
  have v11 : FVec Ideal S512x2048 .f32 := mulf v9 v10
  let v12 : BitVec 32 := Scalar.muli arg2 512#32
  have v13 : IVec S512x1 32 := iota .tc S512x1 32 [0] iota_S512x1_d0_w32
  have v14 : IVec S512x1 32 := broadcast S512x1 v12
  have v15 : IVec S512x1 32 := addi v14 v13
  have v16 : IVec S1x2048 32 := iota .tc S1x2048 32 [1] iota_S1x2048_d1_w32
  have v17 : IVec S512x2048 32 := broadcastTo S512x2048 v16 broadcasts_S1x2048_S512x2048
  have v18 : IVec S512x2048 32 := broadcastTo S512x2048 v15 broadcasts_S512x1_S512x2048
  have v19 : IVec S512x2048 1 := cmpi .sle v17 v18
  have cst_12 : Ideal .f32 := Scalar.ofBits .f32 0xD01502F9#32
  have v20 : FVec Ideal S512x2048 .f32 := broadcast S512x2048 cst_12
  have v21 : FVec Ideal S512x2048 .f32 := select v19 v11 v20
  v21

/-- The weights block is the softmax of the score block. -/
theorem pay3_eq (i : grid0.Coords) (x0 : Vec Ideal S1x1x512x64 .f32) (x1 : Vec Ideal S1x1x2048x64 .f32) :
    k0_pay3 (F := Ideal) i x0 x1 = soft (scores i x0 x1) := rfl

/-- The column numbers, one row broadcast over the rows, read at `(r, c)`: the word of `c`. -/
theorem colIota_apply (r : Fin 512) (c : Fin 2048) :
    broadcastTo S512x2048 (iota .tc S1x2048 32 [1] iota_S1x2048_d1_w32) broadcasts_S1x2048_S512x2048 (ix2 r c)
      = BitVec.ofNat 32 c.val :=
  (broadcastTo_1b_ab_apply _ broadcasts_S1x2048_S512x2048 r c).trans
    (iota_single_apply .tc S1x2048 32 1 iota_S1x2048_d1_w32 (ix2 (0 : Fin 1) c))

/-- The row numbers offset by a word `b`, one column broadcast over the columns, read at `(r, c)`: `b` plus the word of `r`. -/
theorem rowIota_apply (b : BitVec 32) (r : Fin 512) (c : Fin 2048) :
    broadcastTo S512x2048 (addi (broadcast S512x1 b) (iota .tc S512x1 32 [0] iota_S512x1_d0_w32)) broadcasts_S512x1_S512x2048 (ix2 r c)
      = IntOp.addi b (BitVec.ofNat 32 r.val) :=
  (broadcastTo_a1_ab_apply _ broadcasts_S512x1_S512x2048 r c).trans
    (congrArg (IntOp.addi b) (iota_single_apply .tc S512x1 32 0 iota_S512x1_d0_w32 (ix2 r (0 : Fin 1))))

/-- Read at `(r, c)`, the score block of query block `i 2` is the masked, scaled score of the block's query row `r`, at
    sequence position `(i 2) * 512 + r`, against key row `c`. -/
theorem scores_apply (i : grid0.Coords) (x0 : Vec Ideal S1x1x512x64 .f32) (x1 : Vec Ideal S1x1x2048x64 .f32) (r : Fin 512) (c : Fin 2048) :
    scores i x0 x1 (ix2 r c)
      = Cert.Attn.logitRow (fun d : Fin 64 => x0 (ix4 (0 : Fin 1) (0 : Fin 1) r d))
          (fun (c' : Fin 2048) (d : Fin 64) => x1 (ix4 (0 : Fin 1) (0 : Fin 1) c' d)) ((i 2).val * 512 + r.val) c := by
  have ht : (i 2).val < 4 := (i 2).isLt
  have hbit : cmpi .sle (broadcastTo S512x2048 (iota .tc S1x2048 32 [1] iota_S1x2048_d1_w32) broadcasts_S1x2048_S512x2048)
      (broadcastTo S512x2048 (addi (broadcast S512x1 (Scalar.muli (BitVec.ofNat 32 (i 2).val) 512#32))
        (iota .tc S512x1 32 [0] iota_S512x1_d0_w32)) broadcasts_S512x1_S512x2048) (ix2 r c)
      = if c.val ≤ (i 2).val * 512 + r.val then 1#1 else 0#1 := by
    show IntOp.cmpi .sle _ _ = _
    rw [colIota_apply, rowIota_apply]
    exact mask_bit c.val (i 2).val r.val c.isLt ht r.isLt
  unfold scores Cert.Attn.logitRow
  refine (select_apply _ _ _ (ix2 r c)).trans ?_
  rw [hbit]
  by_cases h : c.val ≤ (i 2).val * 512 + r.val
  · rw [if_pos h, if_pos h, select_one]
    refine (mulf_apply _ _ _).trans ?_
    refine congrArg₂ (· * ·) ?_ rfl
    refine (qk_apply _ _ r c).trans ?_
    refine Finset.sum_congr rfl fun k _ => ?_
    exact congrArg₂ (· * ·) (shapeCast_11ab_ab_apply x0 shapeCasts_S1x1x512x64_S512x64 r k)
      (shapeCast_11ab_ab_apply x1 shapeCasts_S1x1x2048x64_S2048x64 c k)
  · rw [if_neg h, if_neg h, select_zero]
    rfl

/-! ## The weights block -/

/-- The weights block of query block `i 2` read at `(r, c)`: the attention weight of key position `c` for the block's
    query row `r`, at sequence position `(i 2) * 512 + r`. -/
theorem pay3_apply (i : grid0.Coords) (x0 : Vec Ideal S1x1x512x64 .f32) (x1 : Vec Ideal S1x1x2048x64 .f32) (r : Fin 512) (c : Fin 2048) :
    k0_pay3 (F := Ideal) i x0 x1 (ix2 r c)
      = Cert.Attn.attRow (fun d : Fin 64 => x0 (ix4 (0 : Fin 1) (0 : Fin 1) r d))
          (fun (c' : Fin 2048) (d : Fin 64) => x1 (ix4 (0 : Fin 1) (0 : Fin 1) c' d)) ((i 2).val * 512 + r.val) c := by
  rw [pay3_eq]
  generalize hw : scores i x0 x1 = w
  refine (soft_apply w r c).trans ?_
  unfold Cert.Attn.attRow
  refine congrArg (fun f => Cert.Attn.softmaxRow f c) (funext fun c' => ?_)
  rw [← hw]
  exact scores_apply i x0 x1 r c'

/-! ## The three one-step payloads -/

/-- The value block handed to the second product: the loaded block with its two unit axes dropped. -/
theorem pay2_apply (x2 : Vec Ideal S1x1x2048x64 .f32) (c : Fin 2048) (d : Fin 64) :
    k0_pay2 (F := Ideal) x2 (ix2 c d) = x2 (ix4 (0 : Fin 1) (0 : Fin 1) c d) := by
  unfold k0_pay2
  exact shapeCast_11ab_ab_apply x2 shapeCasts_S1x1x2048x64_S2048x64 c d

/-- The stored weights block is the weights block with two unit axes added. -/
theorem pay4_apply (i : grid0.Coords) (x0 : Vec Ideal S1x1x512x64 .f32) (x1 : Vec Ideal S1x1x2048x64 .f32) (r : Fin 512) (c : Fin 2048) :
    k0_pay4 (F := Ideal) i x0 x1 (ix4 (0 : Fin 1) (0 : Fin 1) r c) = k0_pay3 (F := Ideal) i x0 x1 (ix2 r c) := by
  unfold k0_pay4
  generalize k0_pay3 (F := Ideal) i x0 x1 = y
  exact shapeCast_ab_11ab_apply y shapeCasts_S512x2048_S1x1x512x2048 0 0 r c

/-- The context block: the weights' product with the value block, with two unit axes added. -/
theorem pay1_apply (v8 : FVec Ideal S2048x64 .bf16) (v30 : FVec Ideal S512x2048 .f32) (r : Fin 512) (d : Fin 64) :
    k0_pay1 (F := Ideal) v8 v30 (ix4 (0 : Fin 1) (0 : Fin 1) r d) = ∑ c : Fin 2048, v30 (ix2 r c) * v8 (ix2 c d) := by
  unfold k0_pay1
  refine (shapeCast_ab_11ab_apply _ shapeCasts_S512x64_S1x1x512x64 0 0 r d).trans ?_
  exact av_apply _ v8 r d

end Cert.Attn.Ker

end
-- ==== Proof.KernelArrays.lean ====
/-
  From blocks to arrays: what the attention kernel's two result arrays hold after its grid has run.

  The grid has one point per (batch b, head h, query tile qt); a point reads rows 512·qt … 512·qt + 511 of head (b, h) of
  the queries and ALL 2048 rows of that head's keys and values, and writes rows 512·qt … of head (b, h) of the weights
  (a [512, 2048] block) and of the context (a [512, 64] block). Row `r` of a point's blocks is query position
  512·qt + r, so what the point writes is the block of the whole-array functions `att` and `ctx`; the points' blocks
  tile both arrays, so the arrays end holding `att` and `ctx` of the head-split arrays the region found.
-/
import proofs.«147215_j20624432955701_2_alg».proof.Proof.KernelIdealFrame
import proofs.«147215_j20624432955701_2_alg».proof.Proof.Gen.KernelIdeal.Points
import proofs.«147215_j20624432955701_2_alg».proof.Proof.Spec
import proofs.«147215_j20624432955701_2_alg».proof.Proof.KernelRows
import Idealize.ShloMosaic.Lib.Pipeline.Value
import Idealize.ShloMosaic.Lib.ValueIdx

set_option maxRecDepth 16384

noncomputable section

namespace Cert.Attn.Arr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-- The zero offsets of a whole rank-4 buffer. -/
theorem hz4 : (![0, 0, 0, 0] : Fin 4 → Nat) = fun _ => 0 := funext fun a => by fin_cases a <;> rfl

/-- The printed index maps, decided over the 128 grid points: the query window and both result windows sit at block
    (b, h, qt, 0), the key and value windows at block (b, h, 0, 0), where (b, h, qt) are the point's coordinates. -/
theorem idx_facts : ∀ t : Fin cfg0.N,
    win0_0.index t (0 : Fin 4) = (grid0.coords t 0).val ∧ win0_0.index t (1 : Fin 4) = (grid0.coords t 1).val
    ∧ win0_0.index t (2 : Fin 4) = (grid0.coords t 2).val ∧ win0_0.index t (3 : Fin 4) = 0
    ∧ win0_1.index t (0 : Fin 4) = (grid0.coords t 0).val ∧ win0_1.index t (1 : Fin 4) = (grid0.coords t 1).val
    ∧ win0_1.index t (2 : Fin 4) = 0 ∧ win0_1.index t (3 : Fin 4) = 0
    ∧ win0_2.index t (0 : Fin 4) = (grid0.coords t 0).val ∧ win0_2.index t (1 : Fin 4) = (grid0.coords t 1).val
    ∧ win0_2.index t (2 : Fin 4) = 0 ∧ win0_2.index t (3 : Fin 4) = 0
    ∧ win0_3.index t (0 : Fin 4) = (grid0.coords t 0).val ∧ win0_3.index t (1 : Fin 4) = (grid0.coords t 1).val
    ∧ win0_3.index t (2 : Fin 4) = (grid0.coords t 2).val ∧ win0_3.index t (3 : Fin 4) = 0
    ∧ win0_4.index t (0 : Fin 4) = (grid0.coords t 0).val ∧ win0_4.index t (1 : Fin 4) = (grid0.coords t 1).val
    ∧ win0_4.index t (2 : Fin 4) = (grid0.coords t 2).val ∧ win0_4.index t (3 : Fin 4) = 0 :=
  (by decide +kernel : ∀ t : Fin grid0.N, _)

/-- Every (batch, head, query tile) is some point's. -/
theorem idx_onto : ∀ (b : Fin 2) (h : Fin 16) (q : Fin 4), ∃ t : Fin cfg0.N,
    (grid0.coords t 0).val = b.val ∧ (grid0.coords t 1).val = h.val ∧ (grid0.coords t 2).val = q.val :=
  (by decide +kernel : ∀ (b : Fin 2) (h : Fin 16) (q : Fin 4), ∃ t : Fin grid0.N,
    (grid0.coords t 0).val = b.val ∧ (grid0.coords t 1).val = h.val ∧ (grid0.coords t 2).val = q.val)

/-- The query block at a point: row `r` is query position 512·qt + r of head (b, h). -/
theorem qblk_apply (c : Dev nD) (t : Fin cfg0.N) (r : Fin 512) (d : Fin 64) (g : S2x16x2048x64.Idx)
    (h0 : (g 0).val = (grid0.coords t 0).val) (h1 : (g 1).val = (grid0.coords t 1).val)
    (h2 : (g 2).val = (grid0.coords t 2).val * 512 + r.val) (h3 : (g 3).val = d.val) :
    (iblk m c 0 t : Vec Ideal S1x1x512x64 .f32) (ix4 (0 : Fin 1) (0 : Fin 1) r d) = V m c main_v1 g := by
  obtain ⟨e0, e1, e2, e3, -⟩ := idx_facts t
  unfold iblk
  rw [View.read_apply]
  show V m c main_v1 _ = V m c main_v1 g
  refine congrArg (V m c main_v1) ?_
  funext a
  apply Fin.ext
  match a with
  | ⟨0, _⟩ => show win0_0.index t (0 : Fin 4) * 1 + 1 * 0 = (g 0).val; omega
  | ⟨1, _⟩ => show win0_0.index t (1 : Fin 4) * 1 + 1 * 0 = (g 1).val; omega
  | ⟨2, _⟩ => show win0_0.index t (2 : Fin 4) * 512 + 1 * r.val = (g 2).val; omega
  | ⟨3, _⟩ => show win0_0.index t (3 : Fin 4) * 64 + 1 * d.val = (g 3).val; omega

/-- The key block at a point: all 2048 rows of head (b, h) of the summed keys. -/
theorem kblk_apply (c : Dev nD) (t : Fin cfg0.N) (r : Fin 2048) (d : Fin 64) (g : S2x16x2048x64.Idx)
    (h0 : (g 0).val = (grid0.coords t 0).val) (h1 : (g 1).val = (grid0.coords t 1).val)
    (h2 : (g 2).val = r.val) (h3 : (g 3).val = d.val) :
    (iblk m c 1 t : Vec Ideal S1x1x2048x64 .f32) (ix4 (0 : Fin 1) (0 : Fin 1) r d) = V m c main_v8 g := by
  obtain ⟨-, -, -, -, e0, e1, e2, e3, -⟩ := idx_facts t
  unfold iblk
  rw [View.read_apply]
  show V m c main_v8 _ = V m c main_v8 g
  refine congrArg (V m c main_v8) ?_
  funext a
  apply Fin.ext
  match a with
  | ⟨0, _⟩ => show win0_1.index t (0 : Fin 4) * 1 + 1 * 0 = (g 0).val; omega
  | ⟨1, _⟩ => show win0_1.index t (1 : Fin 4) * 1 + 1 * 0 = (g 1).val; omega
  | ⟨2, _⟩ => show win0_1.index t (2 : Fin 4) * 2048 + 1 * r.val = (g 2).val; omega
  | ⟨3, _⟩ => show win0_1.index t (3 : Fin 4) * 64 + 1 * d.val = (g 3).val; omega

/-- The value block at a point: all 2048 rows of head (b, h) of the values. -/
theorem vblk_apply (c : Dev nD) (t : Fin cfg0.N) (r : Fin 2048) (d : Fin 64) (g : S2x16x2048x64.Idx)
    (h0 : (g 0).val = (grid0.coords t 0).val) (h1 : (g 1).val = (grid0.coords t 1).val)
    (h2 : (g 2).val = r.val) (h3 : (g 3).val = d.val) :
    (iblk m c 2 t : Vec Ideal S1x1x2048x64 .f32) (ix4 (0 : Fin 1) (0 : Fin 1) r d) = V m c main_v7 g := by
  obtain ⟨-, -, -, -, -, -, -, -, e0, e1, e2, e3, -⟩ := idx_facts t
  unfold iblk
  rw [View.read_apply]
  show V m c main_v7 _ = V m c main_v7 g
  refine congrArg (V m c main_v7) ?_
  funext a
  apply Fin.ext
  match a with
  | ⟨0, _⟩ => show win0_2.index t (0 : Fin 4) * 1 + 1 * 0 = (g 0).val; omega
  | ⟨1, _⟩ => show win0_2.index t (1 : Fin 4) * 1 + 1 * 0 = (g 1).val; omega
  | ⟨2, _⟩ => show win0_2.index t (2 : Fin 4) * 2048 + 1 * r.val = (g 2).val; omega
  | ⟨3, _⟩ => show win0_2.index t (3 : Fin 4) * 64 + 1 * d.val = (g 3).val; omega

/-! ## One point's results are blocks of `att` and `ctx` -/

/-- The weights a point computes, at row `r` and column `cc` of its block, are `att` at query position 512·qt + r:
    its query block's row `r` is that position's query row, its key block is the head's keys. -/
theorem att_point (Q K : Cert.Attn.Heads) (i : grid0.Coords) (b : Fin 2) (h : Fin 16) (qt : Fin 4)
    (hi2 : (i 2).val = qt.val)
    (x0 : Vec Ideal S1x1x512x64 .f32) (x1 : Vec Ideal S1x1x2048x64 .f32)
    (hx0 : ∀ (r : Fin 512) (d : Fin 64) (g : S2x16x2048x64.Idx), (g 0).val = b.val → (g 1).val = h.val →
      (g 2).val = qt.val * 512 + r.val → (g 3).val = d.val → x0 (ix4 (0 : Fin 1) (0 : Fin 1) r d) = Q g)
    (hx1 : ∀ (r : Fin 2048) (d : Fin 64) (g : S2x16x2048x64.Idx), (g 0).val = b.val → (g 1).val = h.val →
      (g 2).val = r.val → (g 3).val = d.val → x1 (ix4 (0 : Fin 1) (0 : Fin 1) r d) = K g)
    (r : Fin 512) (cc : Fin 2048) :
    k0_pay3 (F := Ideal) i x0 x1 (ix2 r cc)
      = Cert.Attn.att Q K (ix4 b h (⟨qt.val * 512 + r.val, by have := qt.isLt; have := r.isLt; omega⟩ : Fin 2048) cc) := by
  rw [Cert.Attn.Ker.pay3_apply, Cert.Attn.att_ix4]
  unfold Cert.Attn.attAt
  rw [hi2]
  have eq : (fun d : Fin 64 => x0 (ix4 (0 : Fin 1) (0 : Fin 1) r d))
      = fun d => Q (ix4 b h (⟨qt.val * 512 + r.val, by have := qt.isLt; have := r.isLt; omega⟩ : Fin 2048) d) :=
    funext fun d => hx0 r d _ rfl rfl rfl rfl
  have ek : (fun (c' : Fin 2048) (d : Fin 64) => x1 (ix4 (0 : Fin 1) (0 : Fin 1) c' d)) = fun c' d => K (ix4 b h c' d) :=
    funext fun c' => funext fun d => hx1 c' d _ rfl rfl rfl rfl
  rw [eq, ek]

/-- The context a point computes, at row `r` and feature `d` of its block, is `ctx` at query position 512·qt + r:
    the weights' row times the head's values. -/
theorem ctx_point (Q K Vv : Cert.Attn.Heads) (i : grid0.Coords) (b : Fin 2) (h : Fin 16) (qt : Fin 4)
    (hi2 : (i 2).val = qt.val)
    (x0 : Vec Ideal S1x1x512x64 .f32) (x1 x2 : Vec Ideal S1x1x2048x64 .f32)
    (hx0 : ∀ (r : Fin 512) (d : Fin 64) (g : S2x16x2048x64.Idx), (g 0).val = b.val → (g 1).val = h.val →
      (g 2).val = qt.val * 512 + r.val → (g 3).val = d.val → x0 (ix4 (0 : Fin 1) (0 : Fin 1) r d) = Q g)
    (hx1 : ∀ (r : Fin 2048) (d : Fin 64) (g : S2x16x2048x64.Idx), (g 0).val = b.val → (g 1).val = h.val →
      (g 2).val = r.val → (g 3).val = d.val → x1 (ix4 (0 : Fin 1) (0 : Fin 1) r d) = K g)
    (hx2 : ∀ (r : Fin 2048) (d : Fin 64) (g : S2x16x2048x64.Idx), (g 0).val = b.val → (g 1).val = h.val →
      (g 2).val = r.val → (g 3).val = d.val → x2 (ix4 (0 : Fin 1) (0 : Fin 1) r d) = Vv g)
    (r : Fin 512) (d : Fin 64) :
    k0_pay1 (F := Ideal) (k0_pay2 x2) (k0_pay3 i x0 x1) (ix4 (0 : Fin 1) (0 : Fin 1) r d)
      = Cert.Attn.ctx Q K Vv (ix4 b h (⟨qt.val * 512 + r.val, by have := qt.isLt; have := r.isLt; omega⟩ : Fin 2048) d) := by
  rw [Cert.Attn.Ker.pay1_apply, Cert.Attn.ctx_ix4, Cert.Attn.ctxAt_eq]
  refine Finset.sum_congr rfl fun cc _ => ?_
  rw [att_point Q K i b h qt hi2 x0 x1 hx0 hx1 r cc, Cert.Attn.Ker.pay2_apply, hx2 cc d (ix4 b h cc d) rfl rfl rfl rfl]

/-- The same, at ANY index `y` of the [1, 1, 512, 2048] block and the array index `g` it sits at. -/
theorem att_block (Q K : Cert.Attn.Heads) (i : grid0.Coords) (b : Fin 2) (h : Fin 16) (qt : Fin 4)
    (hi2 : (i 2).val = qt.val)
    (x0 : Vec Ideal S1x1x512x64 .f32) (x1 : Vec Ideal S1x1x2048x64 .f32)
    (hx0 : ∀ (r : Fin 512) (d : Fin 64) (g : S2x16x2048x64.Idx), (g 0).val = b.val → (g 1).val = h.val →
      (g 2).val = qt.val * 512 + r.val → (g 3).val = d.val → x0 (ix4 (0 : Fin 1) (0 : Fin 1) r d) = Q g)
    (hx1 : ∀ (r : Fin 2048) (d : Fin 64) (g : S2x16x2048x64.Idx), (g 0).val = b.val → (g 1).val = h.val →
      (g 2).val = r.val → (g 3).val = d.val → x1 (ix4 (0 : Fin 1) (0 : Fin 1) r d) = K g)
    (y : S1x1x512x2048.Idx) (g : S2x16x2048x2048.Idx)
    (hg0 : (g 0).val = b.val) (hg1 : (g 1).val = h.val) (hg2 : (g 2).val = qt.val * 512 + (y 2).val) (hg3 : (g 3).val = (y 3).val) :
    k0_pay4 (F := Ideal) i x0 x1 y = Cert.Attn.att Q K g := by
  obtain ⟨r, cc, rfl⟩ : ∃ (r : Fin 512) (cc : Fin 2048), y = ix4 (0 : Fin 1) (0 : Fin 1) r cc :=
    ⟨⟨(y 2).val, (y 2).isLt⟩, ⟨(y 3).val, (y 3).isLt⟩, funext fun a => Fin.ext (by
      match a with
      | ⟨0, _⟩ => show (y 0).val = 0; have : (y 0).val < 1 := (y 0).isLt; omega
      | ⟨1, _⟩ => show (y 1).val = 0; have : (y 1).val < 1 := (y 1).isLt; omega
      | ⟨2, _⟩ => rfl
      | ⟨3, _⟩ => rfl)⟩
  have hg : g = ix4 b h (⟨qt.val * 512 + r.val, by have := qt.isLt; have := r.isLt; omega⟩ : Fin 2048) cc :=
    funext fun a => Fin.ext (by
      match a with
      | ⟨0, _⟩ => exact hg0
      | ⟨1, _⟩ => exact hg1
      | ⟨2, _⟩ => exact hg2
      | ⟨3, _⟩ => exact hg3)
  rw [hg, Cert.Attn.Ker.pay4_apply]
  exact att_point Q K i b h qt hi2 x0 x1 hx0 hx1 r cc

/-- The same for the context, at any index `y` of the [1, 1, 512, 64] block and the array index `g` it sits at. -/
theorem ctx_block (Q K Vv : Cert.Attn.Heads) (i : grid0.Coords) (b : Fin 2) (h : Fin 16) (qt : Fin 4)
    (hi2 : (i 2).val = qt.val)
    (x0 : Vec Ideal S1x1x512x64 .f32) (x1 x2 : Vec Ideal S1x1x2048x64 .f32)
    (hx0 : ∀ (r : Fin 512) (d : Fin 64) (g : S2x16x2048x64.Idx), (g 0).val = b.val → (g 1).val = h.val →
      (g 2).val = qt.val * 512 + r.val → (g 3).val = d.val → x0 (ix4 (0 : Fin 1) (0 : Fin 1) r d) = Q g)
    (hx1 : ∀ (r : Fin 2048) (d : Fin 64) (g : S2x16x2048x64.Idx), (g 0).val = b.val → (g 1).val = h.val →
      (g 2).val = r.val → (g 3).val = d.val → x1 (ix4 (0 : Fin 1) (0 : Fin 1) r d) = K g)
    (hx2 : ∀ (r : Fin 2048) (d : Fin 64) (g : S2x16x2048x64.Idx), (g 0).val = b.val → (g 1).val = h.val →
      (g 2).val = r.val → (g 3).val = d.val → x2 (ix4 (0 : Fin 1) (0 : Fin 1) r d) = Vv g)
    (y : S1x1x512x64.Idx) (g : S2x16x2048x64.Idx)
    (hg0 : (g 0).val = b.val) (hg1 : (g 1).val = h.val) (hg2 : (g 2).val = qt.val * 512 + (y 2).val) (hg3 : (g 3).val = (y 3).val) :
    k0_pay1 (F := Ideal) (k0_pay2 x2) (k0_pay3 i x0 x1) y = Cert.Attn.ctx Q K Vv g := by
  obtain ⟨r, d, rfl⟩ : ∃ (r : Fin 512) (d : Fin 64), y = ix4 (0 : Fin 1) (0 : Fin 1) r d :=
    ⟨⟨(y 2).val, (y 2).isLt⟩, ⟨(y 3).val, (y 3).isLt⟩, funext fun a => Fin.ext (by
      match a with
      | ⟨0, _⟩ => show (y 0).val = 0; have : (y 0).val < 1 := (y 0).isLt; omega
      | ⟨1, _⟩ => show (y 1).val = 0; have : (y 1).val < 1 := (y 1).isLt; omega
      | ⟨2, _⟩ => rfl
      | ⟨3, _⟩ => rfl)⟩
  have hg : g = ix4 b h (⟨qt.val * 512 + r.val, by have := qt.isLt; have := r.isLt; omega⟩ : Fin 2048) d :=
    funext fun a => Fin.ext (by
      match a with
      | ⟨0, _⟩ => exact hg0
      | ⟨1, _⟩ => exact hg1
      | ⟨2, _⟩ => exact hg2
      | ⟨3, _⟩ => exact hg3)
  rw [hg]
  exact ctx_point Q K Vv i b h qt hi2 x0 x1 x2 hx0 hx1 hx2 r d

/-! ## What a point writes back -/

/-- WHAT POINT `t` WRITES BACK to the weights' array is block `t` of `att` of the head-split queries and summed keys
    as the region finds them. -/
theorem flushed_att (c : Dev nD) (t : Fin cfg0.N) :
    (dats m 0 c).flushed 4 t
      = ((cfg0.win 4).blk t).view.read (Elt Ideal) (Cert.Attn.att (V m c main_v1) (V m c main_v8)) := by
  show (cfg0.win 4).cut (grid0.coords t) ((dats m 0 c).after 4 t) = _
  rw [after0_4]
  unfold out0_4
  rw [View.canon_unit_zero hz4]
  simp only [View.ld_unit_zero (S := S1x1x512x64) hz4, View.ld_unit_zero (S := S1x1x2048x64) hz4]
  obtain ⟨-, -, -, -, -, -, -, -, -, -, -, -, -, -, -, -, e0, e1, e2, e3⟩ := idx_facts t
  funext y
  show k0_pay4 (F := Ideal) (grid0.coords t) (iblk m c 0 t) (iblk m c 1 t) y
    = Cert.Attn.att (V m c main_v1) (V m c main_v8) (((cfg0.win 4).blk t).view.emb y)
  refine att_block (V m c main_v1) (V m c main_v8) (grid0.coords t) (grid0.coords t 0) (grid0.coords t 1) (grid0.coords t 2) rfl
    (iblk m c 0 t) (iblk m c 1 t) (fun r d g h0 h1 h2 h3 => qblk_apply m c t r d g h0 h1 h2 h3)
    (fun r d g h0 h1 h2 h3 => kblk_apply m c t r d g h0 h1 h2 h3) y _ ?_ ?_ ?_ ?_
  · show win0_4.index t (0 : Fin 4) * 1 + 1 * (y 0).val = (grid0.coords t 0).val
    have : (y 0).val < 1 := (y 0).isLt; omega
  · show win0_4.index t (1 : Fin 4) * 1 + 1 * (y 1).val = (grid0.coords t 1).val
    have : (y 1).val < 1 := (y 1).isLt; omega
  · show win0_4.index t (2 : Fin 4) * 512 + 1 * (y 2).val = (grid0.coords t 2).val * 512 + (y 2).val
    omega
  · show win0_4.index t (3 : Fin 4) * 2048 + 1 * (y 3).val = (y 3).val
    omega

/-- WHAT POINT `t` WRITES BACK to the context's array is block `t` of `ctx` of the head-split queries, summed keys and
    values as the region finds them. -/
theorem flushed_ctx (c : Dev nD) (t : Fin cfg0.N) :
    (dats m 0 c).flushed 3 t
      = ((cfg0.win 3).blk t).view.read (Elt Ideal) (Cert.Attn.ctx (V m c main_v1) (V m c main_v8) (V m c main_v7)) := by
  show (cfg0.win 3).cut (grid0.coords t) ((dats m 0 c).after 3 t) = _
  rw [after0_3]
  unfold out0_3
  rw [View.canon_unit_zero hz4]
  simp only [View.ld_unit_zero (S := S1x1x512x64) hz4, View.ld_unit_zero (S := S1x1x2048x64) hz4]
  obtain ⟨-, -, -, -, -, -, -, -, -, -, -, -, e0, e1, e2, e3, -⟩ := idx_facts t
  funext y
  show k0_pay1 (F := Ideal) (k0_pay2 (iblk m c 2 t)) (k0_pay3 (grid0.coords t) (iblk m c 0 t) (iblk m c 1 t)) y
    = Cert.Attn.ctx (V m c main_v1) (V m c main_v8) (V m c main_v7) (((cfg0.win 3).blk t).view.emb y)
  refine ctx_block (V m c main_v1) (V m c main_v8) (V m c main_v7) (grid0.coords t) (grid0.coords t 0) (grid0.coords t 1) (grid0.coords t 2) rfl
    (iblk m c 0 t) (iblk m c 1 t) (iblk m c 2 t) (fun r d g h0 h1 h2 h3 => qblk_apply m c t r d g h0 h1 h2 h3)
    (fun r d g h0 h1 h2 h3 => kblk_apply m c t r d g h0 h1 h2 h3)
    (fun r d g h0 h1 h2 h3 => vblk_apply m c t r d g h0 h1 h2 h3) y _ ?_ ?_ ?_ ?_
  · show win0_3.index t (0 : Fin 4) * 1 + 1 * (y 0).val = (grid0.coords t 0).val
    have : (y 0).val < 1 := (y 0).isLt; omega
  · show win0_3.index t (1 : Fin 4) * 1 + 1 * (y 1).val = (grid0.coords t 1).val
    have : (y 1).val < 1 := (y 1).isLt; omega
  · show win0_3.index t (2 : Fin 4) * 512 + 1 * (y 2).val = (grid0.coords t 2).val * 512 + (y 2).val
    omega
  · show win0_3.index t (3 : Fin 4) * 64 + 1 * (y 3).val = (y 3).val
    omega

/-! ## The blocks tile the arrays -/

/-- An index of the weights' array is in point `t`'s block iff each coordinate is in the block's range on its axis. -/
theorem mem_blk_att (t : Fin cfg0.N) (i : S2x16x2048x2048.Idx) :
    i ∈ ((cfg0.win 4).blk t).view.set ↔ ∀ a : Fin 4, win0_4.index t a * S1x1x512x2048.size a ≤ (i a).val
      ∧ (i a).val < win0_4.index t a * S1x1x512x2048.size a + S1x1x512x2048.size a := by
  show i ∈ ((View.whole main_v9_1).slice (win0_4.rect t)).set ↔ _
  rw [View.set_slice_whole, Rect.mem_set_unit]
  exact Iff.rfl

/-- An index of the context's array is in point `t`'s block iff each coordinate is in the block's range on its axis. -/
theorem mem_blk_ctx (t : Fin cfg0.N) (i : S2x16x2048x64.Idx) :
    i ∈ ((cfg0.win 3).blk t).view.set ↔ ∀ a : Fin 4, win0_3.index t a * S1x1x512x64.size a ≤ (i a).val
      ∧ (i a).val < win0_3.index t a * S1x1x512x64.size a + S1x1x512x64.size a := by
  show i ∈ ((View.whole main_v9_0).slice (win0_3.rect t)).set ↔ _
  rw [View.set_slice_whole, Rect.mem_set_unit]
  exact Iff.rfl

/-- Every index of the weights' array is in the block of the point (batch, head, row / 512), which writes back. -/
theorem cover_att (i : S2x16x2048x2048.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, q0, q1, q2⟩ := idx_onto ⟨(i 0).val, h0⟩ ⟨(i 1).val, h1⟩ ⟨(i 2).val / 512, by omega⟩
  obtain ⟨-, -, -, -, -, -, -, -, -, -, -, -, -, -, -, -, e0, e1, e2, e3⟩ := idx_facts t
  refine ⟨t, flush0_4 t, ?_⟩
  rw [mem_blk_att]
  intro a
  match a with
  | ⟨0, _⟩ => show win0_4.index t (0 : Fin 4) * 1 ≤ (i 0).val ∧ (i 0).val < win0_4.index t (0 : Fin 4) * 1 + 1
              simp only [] at q0 q1 q2; omega
  | ⟨1, _⟩ => show win0_4.index t (1 : Fin 4) * 1 ≤ (i 1).val ∧ (i 1).val < win0_4.index t (1 : Fin 4) * 1 + 1
              simp only [] at q0 q1 q2; omega
  | ⟨2, _⟩ => show win0_4.index t (2 : Fin 4) * 512 ≤ (i 2).val ∧ (i 2).val < win0_4.index t (2 : Fin 4) * 512 + 512
              simp only [] at q0 q1 q2; omega
  | ⟨3, _⟩ => show win0_4.index t (3 : Fin 4) * 2048 ≤ (i 3).val ∧ (i 3).val < win0_4.index t (3 : Fin 4) * 2048 + 2048
              omega

/-- Every index of the context's array is in the block of the point (batch, head, row / 512), which writes back. -/
theorem cover_ctx (i : S2x16x2048x64.Idx) :
    ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, q0, q1, q2⟩ := idx_onto ⟨(i 0).val, h0⟩ ⟨(i 1).val, h1⟩ ⟨(i 2).val / 512, by omega⟩
  obtain ⟨-, -, -, -, -, -, -, -, -, -, -, -, e0, e1, e2, e3, -⟩ := idx_facts t
  refine ⟨t, flush0_3 t, ?_⟩
  rw [mem_blk_ctx]
  intro a
  match a with
  | ⟨0, _⟩ => show win0_3.index t (0 : Fin 4) * 1 ≤ (i 0).val ∧ (i 0).val < win0_3.index t (0 : Fin 4) * 1 + 1
              simp only [] at q0 q1 q2; omega
  | ⟨1, _⟩ => show win0_3.index t (1 : Fin 4) * 1 ≤ (i 1).val ∧ (i 1).val < win0_3.index t (1 : Fin 4) * 1 + 1
              simp only [] at q0 q1 q2; omega
  | ⟨2, _⟩ => show win0_3.index t (2 : Fin 4) * 512 ≤ (i 2).val ∧ (i 2).val < win0_3.index t (2 : Fin 4) * 512 + 512
              simp only [] at q0 q1 q2; omega
  | ⟨3, _⟩ => show win0_3.index t (3 : Fin 4) * 64 ≤ (i 3).val ∧ (i 3).val < win0_3.index t (3 : Fin 4) * 64 + 64
              omega

/-! ## The arrays after the grid -/

/-- The weights' array ends holding `att` of the head-split queries and summed keys the region found. -/
theorem final_att (c : Dev nD) :
    (dats m 0 c).arrAt 4 cfg0.N = Cert.Attn.att (V m c main_v1) (V m c main_v8) :=
  (dats m 0 c).arrAt_eq_of_cover 4 _ (fun t _ => flushed_att m c t) cover_att

/-- The context's array ends holding `ctx` of the head-split queries, summed keys and values the region found. -/
theorem final_ctx (c : Dev nD) :
    (dats m 0 c).arrAt 3 cfg0.N = Cert.Attn.ctx (V m c main_v1) (V m c main_v8) (V m c main_v7) :=
  (dats m 0 c).arrAt_eq_of_cover 3 _ (fun t _ => flushed_ctx m c t) cover_ctx

end Cert.Attn.Arr

end
-- ==== Proof.Bridge.lean ====
/-
  The attention kernel's program around its region, read as values.

  Before the region the program splits the heads of its four arguments (a reshape [2, 2048, 1024] → [2, 2048, 16, 64] and a
  transpose to [2, 16, 2048, 64] each) and adds the two key arrays; these are the same nine operations the reference
  starts with, so the arrays the region finds are the reference's own first stages of the same arguments. After the
  region the context is transposed back and reshaped to [2, 2048, 1024]; the weights are returned as the region left them.
-/
import proofs.«147215_j20624432955701_2_alg».proof.Proof.KernelArrays
import proofs.«147215_j20624432955701_2_alg».proof.Proof.Gen.ReferenceIdeal.Read
import Idealize.ShloMosaic.Lib.StableHlo.Run

set_option maxRecDepth 16384

noncomputable section

namespace Cert.Attn.Bridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-- The queries the region finds are the head-split first argument. -/
theorem entry_q (c : Dev nD) :
    (V m c main_v1 : S2x16x2048x64.Idx → EReal)
      = Cert.ReferenceIdeal.Read.val_main_v1 (F := Ideal) (m ((c : Thread nD τ).loc main_arg0)) := by
  show StableHlo.after hostOps0 (fun b => m (c, b)) (Proc.devRef .tc main_v1) = _
  after_results
  rfl

/-- The keys the region finds are the sum of the head-split second and fourth arguments. -/
theorem entry_k (c : Dev nD) :
    (V m c main_v8 : S2x16x2048x64.Idx → EReal)
      = Cert.ReferenceIdeal.Read.val_main_v8 (F := Ideal) (m ((c : Thread nD τ).loc main_arg1)) (m ((c : Thread nD τ).loc main_arg3)) := by
  show StableHlo.after hostOps0 (fun b => m (c, b)) (Proc.devRef .tc main_v8) = _
  after_results
  rfl

/-- The values the region finds are the head-split third argument. -/
theorem entry_v (c : Dev nD) :
    (V m c main_v7 : S2x16x2048x64.Idx → EReal)
      = Cert.ReferenceIdeal.Read.val_main_v7 (F := Ideal) (m ((c : Thread nD τ).loc main_arg2)) := by
  show StableHlo.after hostOps0 (fun b => m (c, b)) (Proc.devRef .tc main_v7) = _
  after_results
  rfl

/-- The first result after the two operations that follow the region: the context's array, heads merged. -/
theorem tail_ctx (c : Dev nD) :
    Pipeline.afterTail₀ cfgs (dats m) 0 (V0 m) [hostOps1] c main_v11
      = shapeCast S2x2048x1024 (transpose S2x2048x16x64 [0, 2, 1, 3] ((dats m 0 c).arrAt 3 cfg0.N) transposes_S2x16x2048x64_S2x2048x16x64_0_2_1_3) shapeCasts_S2x2048x16x64_S2x2048x1024 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.tc.devRef main_v9_0)
      = (dats m 0 c).arrAt 3 cfg0.N := Pipeline.withArrays_arr spec0 launch0.win.arr_inj c _ _ 3
  rw [e]
  rfl

/-- The kernel's run, read: every weakly fair execution terminates with the first result at the merged heads of `ctx`,
    the second at `att`, both of the head-split arguments, and the arguments unchanged. -/
theorem run : θ_run defs (onTc (τ := τ) (main (F := Ideal))) ⟨m, fun _ => 0, ρ⟩ fun r => ∀ c : Dev nD,
      r.2.mem ((c.tc : Thread nD τ).loc main_v11)
        = shapeCast S2x2048x1024 (transpose S2x2048x16x64 [0, 2, 1, 3]
            (Cert.Attn.ctx (V m c main_v1) (V m c main_v8) (V m c main_v7))
            transposes_S2x16x2048x64_S2x2048x16x64_0_2_1_3) shapeCasts_S2x2048x16x64_S2x2048x1024
      ∧ r.2.mem ((c.tc : Thread nD τ).loc main_v9_1) = Cert.Attn.att (V m c main_v1) (V m c main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v11 (Pipeline.mem_restRefs_of main_v11 (by decide) (by decide))).trans
        ((tail_ctx m c).trans (by rw [Cert.Attn.Arr.final_ctx m c])),
      ((h c).1 4).trans (Cert.Attn.Arr.final_att m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Attn.Bridge

end
-- ==== Proof.RefAttn.lean ====
/-
  The reference's attention weights and context are the specification's, over the head-split arguments.

  At an index (b, h, r, c) the reference forms the inner product of query row r with key row c over the 64 features,
  divides it by the square root of 64, multiplies it by the mask (one where c ≤ r, zero above the diagonal) and adds the
  fill value times one minus the mask. On the extended reals, for every value x of the inner product,
  x / √64 · 1 + fill · (1 - 1) = x · (1/8) and x / √64 · 0 + fill · (1 - 0) = fill, because y · 0 = 0 for every y, ±∞
  included. The mask's condition compares two positions below 2048 as signed 32-bit words, which is their comparison as
  naturals. So the reference's masked scores are the specification's row of scores.

  The row's maximum is the fold of the maximum from the floor pattern over the 2048 columns; taking the maximum with the
  floor pattern once more changes nothing, since the fold is at least its starting value. The weights are the
  exponentials of the scores less that maximum, over their row sum (started from the pattern of zero): the
  specification's softmax. The context at (b, h, r, d) is the sum over key positions of weight times value.
-/
import proofs.«147215_j20624432955701_2_alg».proof.Proof.Gen.ReferenceIdeal.Read
import proofs.«147215_j20624432955701_2_alg».proof.Proof.Spec
import Idealize.ShloMosaic.PureOps.Reduce

noncomputable section

namespace Cert.Attn.Ref

open Cert.ReferenceIdeal Cert.ReferenceIdeal.Read Idealize.ShloMosaic Idealize.ShloMosaic.ValueIdx

/-! ### The constants -/

/-- The pattern of 1.0 denotes 1. -/
theorem ofBits_one : Ideal.ofBits .f32 0x3F800000#32 = 1 := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern of 64.0 denotes 64. -/
theorem ofBits_64 : Ideal.ofBits .f32 0x42800000#32 = ((64 : ℝ) : EReal) := by
  simp [Ideal.ofBits, Ideal.ieee, -EReal.coe_mul]; norm_num

/-- The pattern of 0.125 denotes 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  have h : (64 : ℝ) = 8 * 8 := by norm_num
  rw [h, Real.sqrt_mul_self (by norm_num)]

/-- Dividing by the square root of 64 is multiplying by the scale, at every extended real. -/
theorem div_sqrt_64 (x : EReal) :
    Ideal.div x (Ideal.sqrt (Ideal.ofBits .f32 0x42800000#32)) = x * Cert.Attn.scale := by
  rw [ofBits_64, sqrt_64, Ideal.div_coe (by norm_num)]
  show x * ((1 / 8 : ℝ) : EReal) = x * Ideal.ofBits .f32 0x3E000000#32
  rw [ofBits_eighth]

/-- One minus one is zero. -/
theorem one_sub_one : (1 : EReal) - 1 = 0 := by
  rw [← EReal.coe_one, ← EReal.coe_sub, sub_self, EReal.coe_zero]

/-! ### The mask word -/

/-- For two positions below 2048 the signed comparison of their 32-bit words is the comparison of the positions. -/
theorem maskWord (r c : ℕ) (hr : r < 2048) (hc : c < 2048) :
    IntOp.cmpi .sge (IntOp.addi (BitVec.ofNat 32 r) 0#32) (BitVec.ofNat 32 c) = if c ≤ r then 1#1 else 0#1 := by
  unfold IntOp.cmpi IntOp.addi
  rw [BitVec.add_zero]
  have e : (BitVec.ofNat 32 c).sle (BitVec.ofNat 32 r) = decide (c ≤ r) := by
    rw [BitVec.sle_eq_decide]
    have h1 : (BitVec.ofNat 32 c).toInt = (c : ℤ) := by
      rw [BitVec.toInt_eq_toNat_of_lt (by rw [BitVec.toNat_ofNat]; omega), BitVec.toNat_ofNat]; omega
    have h2 : (BitVec.ofNat 32 r).toInt = (r : ℤ) := by
      rw [BitVec.toInt_eq_toNat_of_lt (by rw [BitVec.toNat_ofNat]; omega), BitVec.toNat_ofNat]; omega
    rw [h1, h2]; simp
  show BitVec.ofBool ((BitVec.ofNat 32 c).sle (BitVec.ofNat 32 r)) = _
  rw [e]
  by_cases h : c ≤ r
  · rw [if_pos h, decide_eq_true h]; rfl
  · rw [if_neg h, decide_eq_false h]; rfl

/-! ### The mask -/

/-- The mask at row `r`, column `c`: one where `c ≤ r`, zero above the diagonal. -/
theorem mask_apply (r c : Fin 2048) :
    val_main_v14 (F := Ideal) (ix2 r c) = if c.val ≤ r.val then 1 else 0 := by
  rw [val_main_v14_apply, val_main_call0_v4_apply, val_main_call0_v2_apply, val_main_call0_v0_apply,
    val_main_call0_v1_apply, val_main_call0_c_apply, val_main_call0_v3_apply, val_main_v13_apply,
    val_main_cst_0_apply, val_main_call0_v5_apply, val_main_call0_cst_apply]
  show Scalar.select (IntOp.cmpi .sge (IntOp.addi (BitVec.ofNat 32 r.val) 0#32) (BitVec.ofNat 32 c.val))
    (Ideal.ofBits .f32 0x3F800000#32) (Ideal.ofBits .f32 0x00000000#32) = _
  rw [maskWord r.val c.val r.isLt c.isLt, ofBits_one, ofBits_zero]
  by_cases h : c.val ≤ r.val
  · rw [if_pos h, if_pos h, select_one]
  · rw [if_neg h, if_neg h, select_zero]

/-- The mask broadcast over batch and head. -/
theorem mask16_apply (b : Fin 2) (h : Fin 16) (r c : Fin 2048) :
    val_main_v16 (F := Ideal) (ix4 b h r c) = if c.val ≤ r.val then 1 else 0 := by
  rw [val_main_v16_apply, val_main_v15_apply]
  exact mask_apply r c

/-- The fill term broadcast over batch and head: the fill value times one minus the mask. -/
theorem fill23_apply (b : Fin 2) (h : Fin 16) (r c : Fin 2048) :
    val_main_v23 (F := Ideal) (ix4 b h r c) = Cert.Attn.fill * (1 - (if c.val ≤ r.val then 1 else 0)) := by
  rw [val_main_v23_apply, val_main_v22_apply, val_main_v21_apply, val_main_v20_apply, val_main_cst_2_apply,
    val_main_v19_apply, val_main_v18_apply, val_main_cst_1_apply]
  show Ideal.ofBits .f32 0xD01502F9#32 * (Ideal.ofBits .f32 0x3F800000#32 - val_main_v14 (F := Ideal) (ix2 r c)) = _
  rw [mask_apply, ofBits_one]

/-! ### The scores -/

/-- The left operand's index of the score product at `(b, h, r, c)`, feature `k`. -/
theorem lidx9 (b : Fin 2) (h : Fin 16) (r c : Fin 2048) (k : Fin 64) :
    lidx_main_v9 (ix4 b h r c) k = ix4 b h r k :=
  funext fun a => match a with
    | ⟨0, _⟩ => rfl
    | ⟨1, _⟩ => rfl
    | ⟨2, _⟩ => rfl
    | ⟨3, _⟩ => rfl

/-- The right operand's index of the score product at `(b, h, r, c)`, feature `k`. -/
theorem ridx9 (b : Fin 2) (h : Fin 16) (r c : Fin 2048) (k : Fin 64) :
    ridx_main_v9 (ix4 b h r c) k = ix4 b h c k :=
  funext fun a => match a with
    | ⟨0, _⟩ => rfl
    | ⟨1, _⟩ => rfl
    | ⟨2, _⟩ => rfl
    | ⟨3, _⟩ => rfl

/-- The masked, scaled scores of the reference at `(b, h, r, c)` are the specification's row of scores. -/
theorem logits_apply (x0 x1 x3 : (⟨S2x2048x1024, .f32⟩ : BufTy).Contents (Elt Ideal))
    (b : Fin 2) (h : Fin 16) (r c : Fin 2048) :
    val_main_v24 (F := Ideal) x0 x1 x3 (ix4 b h r c)
      = Cert.Attn.logitRow (fun d => val_main_v1 (F := Ideal) x0 (ix4 b h r d))
          (fun c' d => val_main_v8 (F := Ideal) x1 x3 (ix4 b h c' d)) r.val c := by
  rw [val_main_v24_apply, val_main_v17_apply, val_main_v12_apply, val_main_v9_apply, val_main_v11_apply,
    val_main_v10_apply, val_main_cst_apply, mask16_apply, fill23_apply]
  generalize val_main_v1 (F := Ideal) x0 = Q
  generalize val_main_v8 (F := Ideal) x1 x3 = K
  simp only [lidx9, ridx9]
  show Ideal.div (∑ k : Fin 64, Q (ix4 b h r k) * K (ix4 b h c k)) (Ideal.sqrt (Ideal.ofBits .f32 0x42800000#32))
      * (if c.val ≤ r.val then 1 else 0) + Cert.Attn.fill * (1 - (if c.val ≤ r.val then 1 else 0)) = _
  rw [div_sqrt_64]
  unfold Cert.Attn.logitRow
  by_cases hc : c.val ≤ r.val
  · rw [if_pos hc, if_pos hc, mul_one, one_sub_one, mul_zero, add_zero]
  · rw [if_neg hc, if_neg hc, mul_zero, sub_zero, mul_one, zero_add]

/-! ### The row maximum -/

/-- A row index with a column put back is the full index. -/
theorem lift_ix3 (hR : S2x16x2048x2048.Reduces [3] S2x16x2048) (b : Fin 2) (h : Fin 16) (r : Fin 2048)
    (k : Fin (S2x16x2048x2048.size 3)) :
    hR.lift (ix3 b h r) k = ix4 b h r (⟨k.val, k.isLt⟩ : Fin 2048) := by
  funext a; apply Fin.ext
  fin_cases a <;> rfl

/-- The fold of the maximum from the floor value is at least the floor value. -/
theorem floor_le_rowMax (w : Fin 2048 → EReal) : Cert.Attn.floor ≤ Cert.Attn.rowMax w :=
  (Finset.le_fold_max _).2 (Or.inl le_rfl)

/-- The reference's maximum over the last axis, at row `(b, h, r)`, is the specification's maximum of that row. -/
theorem max25_apply (x0 x1 x3 : (⟨S2x2048x1024, .f32⟩ : BufTy).Contents (Elt Ideal))
    (b : Fin 2) (h : Fin 16) (r : Fin 2048) :
    val_main_v25 (F := Ideal) x0 x1 x3 (ix3 b h r)
      = Cert.Attn.rowMax (fun c => val_main_v24 (F := Ideal) x0 x1 x3 (ix4 b h r c)) := by
  unfold val_main_v25
  generalize val_main_v24 (F := Ideal) x0 x1 x3 = y
  have hR : S2x16x2048x2048.Reduces [3] S2x16x2048 := by decide
  refine (Host.reduce_eq_fold_single (FloatOps.maximumf (F := Ideal) (φ := .f32)) y _ _ hR _ (ix3 b h r)).trans ?_
  have hf : (y ∘ hR.lift (ix3 b h r)) = fun k : Fin 2048 => y (ix4 b h r k) :=
    funext fun k => congrArg y (lift_ix3 hR b h r k)
  rw [hf]
  rfl

/-- Taking the maximum with the floor value once more changes nothing. -/
theorem max27_apply (x0 x1 x3 : (⟨S2x2048x1024, .f32⟩ : BufTy).Contents (Elt Ideal))
    (b : Fin 2) (h : Fin 16) (r : Fin 2048) :
    val_main_v27 (F := Ideal) x0 x1 x3 (ix3 b h r)
      = Cert.Attn.rowMax (fun c => val_main_v24 (F := Ideal) x0 x1 x3 (ix4 b h r c)) := by
  rw [val_main_v27_apply, val_main_v26_apply, val_main_cst_4_apply, max25_apply]
  exact max_eq_right (floor_le_rowMax _)

/-! ### The weights -/

/-- The row of the maximum broadcast back to `(b, h, r, c)`. -/
theorem idx2829 (b : Fin 2) (h : Fin 16) (r c : Fin 2048) :
    idx_main_v28 (idx_main_v29 (ix4 b h r c)) = ix3 b h r :=
  funext fun a => match a with
    | ⟨0, _⟩ => rfl
    | ⟨1, _⟩ => rfl
    | ⟨2, _⟩ => rfl

/-- The row of the sum broadcast back to `(b, h, r, c)`. -/
theorem idx3334 (b : Fin 2) (h : Fin 16) (r c : Fin 2048) :
    idx_main_v33 (idx_main_v34 (ix4 b h r c)) = ix3 b h r :=
  funext fun a => match a with
    | ⟨0, _⟩ => rfl
    | ⟨1, _⟩ => rfl
    | ⟨2, _⟩ => rfl

/-- The summand's index of the row sum at `(b, h, r)`, column `k`. -/
theorem idx32 (b : Fin 2) (h : Fin 16) (r k : Fin 2048) :
    idx_main_v32 (ix3 b h r) k = ix4 b h r k :=
  funext fun a => match a with
    | ⟨0, _⟩ => rfl
    | ⟨1, _⟩ => rfl
    | ⟨2, _⟩ => rfl
    | ⟨3, _⟩ => rfl

/-- The exponential of a score less its row's maximum. -/
theorem exp31_apply (x0 x1 x3 : (⟨S2x2048x1024, .f32⟩ : BufTy).Contents (Elt Ideal))
    (b : Fin 2) (h : Fin 16) (r c : Fin 2048) :
    val_main_v31 (F := Ideal) x0 x1 x3 (ix4 b h r c)
      = Ideal.exp (val_main_v24 (F := Ideal) x0 x1 x3 (ix4 b h r c)
          - Cert.Attn.rowMax (fun c' => val_main_v24 (F := Ideal) x0 x1 x3 (ix4 b h r c'))) := by
  rw [val_main_v31_apply, val_main_v30_apply, val_main_v29_apply, val_main_v28_apply, idx2829, max27_apply]
  rfl

/-- The reference's weights at `(b, h, r, c)` are the softmax of its row of scores. -/
theorem att35_apply (x0 x1 x3 : (⟨S2x2048x1024, .f32⟩ : BufTy).Contents (Elt Ideal))
    (b : Fin 2) (h : Fin 16) (r c : Fin 2048) :
    val_main_v35 (F := Ideal) x0 x1 x3 (ix4 b h r c)
      = Cert.Attn.softmaxRow (fun c' => val_main_v24 (F := Ideal) x0 x1 x3 (ix4 b h r c')) c := by
  rw [val_main_v35_apply, val_main_v34_apply, val_main_v33_apply, idx3334, val_main_v32_apply, val_main_cst_5_apply]
  simp only [idx32, exp31_apply]
  generalize val_main_v24 (F := Ideal) x0 x1 x3 = y
  show Ideal.div _ (Ideal.ofBits .f32 0x00000000#32 + _) = _
  rw [ofBits_zero, zero_add]
  rfl

/-- The reference's attention weights are the specification's, over the head-split arguments. -/
theorem ref_att (x0 x1 x3 : (⟨S2x2048x1024, .f32⟩ : BufTy).Contents (Elt Ideal)) :
    val_main_v35 (F := Ideal) x0 x1 x3 = Cert.Attn.att (val_main_v1 (F := Ideal) x0) (val_main_v8 (F := Ideal) x1 x3) := by
  funext i
  obtain ⟨b, h, r, c, rfl⟩ : ∃ (b : Fin 2) (h : Fin 16) (r c : Fin 2048), i = ix4 b h r c :=
    ⟨i 0, i 1, i 2, i 3, eq_ix4 i⟩
  rw [att35_apply, Cert.Attn.att_ix4]
  unfold Cert.Attn.attAt Cert.Attn.attRow
  exact congrArg (fun w => Cert.Attn.softmaxRow w c) (funext fun c' => logits_apply x0 x1 x3 b h r c')

/-! ### The context -/

/-- The weight's index of the context product at `(b, h, r, d)`, key position `k`. -/
theorem lidx36 (b : Fin 2) (h : Fin 16) (r : Fin 2048) (d : Fin 64) (k : Fin 2048) :
    lidx_main_v36 (ix4 b h r d) k = ix4 b h r k :=
  funext fun a => match a with
    | ⟨0, _⟩ => rfl
    | ⟨1, _⟩ => rfl
    | ⟨2, _⟩ => rfl
    | ⟨3, _⟩ => rfl

/-- The value's index of the context product at `(b, h, r, d)`, key position `k`. -/
theorem ridx36 (b : Fin 2) (h : Fin 16) (r : Fin 2048) (d : Fin 64) (k : Fin 2048) :
    ridx_main_v36 (ix4 b h r d) k = ix4 b h k d :=
  funext fun a => match a with
    | ⟨0, _⟩ => rfl
    | ⟨1, _⟩ => rfl
    | ⟨2, _⟩ => rfl
    | ⟨3, _⟩ => rfl

/-- The reference's context is the specification's, over the head-split arguments. -/
theorem ref_ctx (x0 x1 x2 x3 : (⟨S2x2048x1024, .f32⟩ : BufTy).Contents (Elt Ideal)) :
    val_main_v36 (F := Ideal) x0 x1 x2 x3
      = Cert.Attn.ctx (val_main_v1 (F := Ideal) x0) (val_main_v8 (F := Ideal) x1 x3) (val_main_v7 (F := Ideal) x2) := by
  funext i
  obtain ⟨b, h, r, d, rfl⟩ : ∃ (b : Fin 2) (h : Fin 16) (r : Fin 2048) (d : Fin 64), i = ix4 b h r d :=
    ⟨i 0, i 1, i 2, i 3, eq_ix4 i⟩
  rw [val_main_v36_apply, Cert.Attn.ctx_ix4, Cert.Attn.ctxAt_eq, ref_att]
  refine Finset.sum_congr rfl fun k _ => ?_
  rw [lidx36, ridx36]

end Cert.Attn.Ref

end
-- ==== Proof.lean ====
/-
  The attention kernel against its jnp reference, on the extended reals.

  Both programs split the heads of the query, key, value and second key arguments, add the two key arrays, and compute
  causal softmax attention per (batch, head): the kernel one [512, 2048] tile of weights per grid point, with the scores
  scaled by the pattern of 1/8 and masked by a select against the fill pattern; the reference the whole
  [2, 16, 2048, 2048] array, with the scores divided by √64 and masked by multiplying with a 0/1 lower-triangular array
  and adding the fill pattern times its complement. On the extended reals these are one function of the arguments,
  index by index, for EVERY value of the inputs (no finiteness is used: the laws needed are y · 1 = y, y · 0 = 0 and
  y + 0 = y). Both then merge the heads of the context by the same transpose and reshape.

  The three frames: the kernel's two (as printed, and idealized) are the frame run of its region, the reference's is
  its run with the results dropped. The idealization rewrote nothing, so there is nothing to preserve.
-/
import proofs.«147215_j20624432955701_2_alg».proof.Defs
import proofs.«147215_j20624432955701_2_alg».proof.Proof.Gen.Kernel
import proofs.«147215_j20624432955701_2_alg».proof.Proof.Gen.Kernel.Skeleton
import proofs.«147215_j20624432955701_2_alg».proof.Proof.Gen.Kernel.Launch
import proofs.«147215_j20624432955701_2_alg».proof.Proof.Gen.Kernel.Points
import proofs.«147215_j20624432955701_2_alg».proof.Proof.KernelFrame
import proofs.«147215_j20624432955701_2_alg».proof.Proof.Gen.KernelIdeal
import proofs.«147215_j20624432955701_2_alg».proof.Proof.Gen.KernelIdeal.Skeleton
import proofs.«147215_j20624432955701_2_alg».proof.Proof.Gen.KernelIdeal.Launch
import proofs.«147215_j20624432955701_2_alg».proof.Proof.Gen.KernelIdeal.Points
import proofs.«147215_j20624432955701_2_alg».proof.Proof.KernelIdealFrame
import proofs.«147215_j20624432955701_2_alg».proof.Proof.Gen.ReferenceIdeal
import proofs.«147215_j20624432955701_2_alg».proof.Proof.Gen.ReferenceIdeal.Run
import proofs.«147215_j20624432955701_2_alg».proof.Proof.Gen.ReferenceIdeal.Read
import proofs.«147215_j20624432955701_2_alg».proof.Proof.Gen.Pre_finite_inputs
import proofs.«147215_j20624432955701_2_alg».proof.Proof.Bridge
import proofs.«147215_j20624432955701_2_alg».proof.Proof.RefAttn
import Idealize.ShloMosaic.Adequacy
import Idealize.ShloMosaic.Init

noncomputable section

namespace Cert.Proof

open Idealize.ShloMosaic Idealize.SL.Sem

/-- The printed kernel terminates, faults nowhere and leaves its arguments as they were: the frame run of its region. -/
theorem frame_kernel : Cert.frame_Kernel := fun m ρ _ => Cert.Kernel.GenP.frame m ρ

/-- The same of the idealized kernel. -/
theorem frame_kernelIdeal : Cert.frame_KernelIdeal := fun m ρ _ => Cert.KernelIdeal.GenP.frame m ρ

/-- The reference terminates, faults nowhere and leaves its arguments as they were: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the merged context and the weights of the
    specification over the head-split arguments: the kernel's arrays by the blocks its grid points write, the
    reference's stages by reading them at an index. -/
theorem algebraic : Cert.algebraic_KernelIdeal_ReferenceIdeal := by
  intro m ρ m' ρ' _ hagree
  refine ⟨fun c => Cert.ReferenceIdeal.Read.val_main_v38 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.ReferenceIdeal.Read.val_main_v35 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)), ?_, ?_⟩
  · refine (θ_run Cert.KernelIdeal.defs _ _).mono (fun r h c => ?_) (Cert.Attn.Bridge.run m ρ)
    obtain ⟨h11, h91, ha0, ha1, ha2, ha3⟩ := h c
    refine ⟨h11.trans ?_, h91.trans ?_, ha0, ha1, ha2, ha3⟩
    · rw [Cert.Attn.Bridge.entry_q, Cert.Attn.Bridge.entry_k, Cert.Attn.Bridge.entry_v, ← Cert.Attn.Ref.ref_ctx]
      rfl
    · rw [Cert.Attn.Bridge.entry_q, Cert.Attn.Bridge.entry_k, ← Cert.Attn.Ref.ref_att]
  · refine (θ_run Cert.ReferenceIdeal.defs _ _).mono (fun r h c => ?_) (Cert.ReferenceIdeal.Value.run (F := Ideal) m' ρ')
    obtain ⟨h38, h35, ha0, ha1, ha2, ha3⟩ := h c
    obtain ⟨e0, e1, e2, e3⟩ := hagree c
    refine ⟨h38.trans ?_, h35.trans ?_, ha0, ha1, ha2, ha3⟩
    · rw [Cert.ReferenceIdeal.Read.val_main_v38_eq, e0, e1, e2, e3]
    · rw [Cert.ReferenceIdeal.Read.val_main_v35_eq, e0, e1, e3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
